-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S4x2048x512 : Shape := ⟨3, ![4, 2048, 512]⟩
abbrev S4x2048x8192 : Shape := ⟨3, ![4, 2048, 8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S4x2048x512 : S_.BroadcastsInDim S4x2048x512 (![] : Fin 0 → Fin S4x2048x512.rank)
  reducesTo_S4x2048x512_S_d0_1_2 : S4x2048x512.ReducesTo [0, 1, 2] S_
  bcast_S_S4x2048x8192 : S_.BroadcastsInDim S4x2048x8192 (![] : Fin 0 → Fin S4x2048x8192.rank)
  reducesTo_S4x2048x8192_S_d0_1_2 : S4x2048x8192.ReducesTo [0, 1, 2] S_

variable [Facts]

def fn {F : FTy → Type} [FloatOps F] (main_arg0 : FVec F S8192x512 .f32) (main_arg1 : FVec F S4x2048x512 .f32) (main_arg2 : FVec F S4x2048x8192 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S4x2048x8192 .f32 := Host.absf main_arg2
  let main_cst_2 : FVec F S_ .f32 := constant S_ .f32 0x7F800000#32
  let main_v10 : FVec F S4x2048x8192 .f32 := broadcastInDim S4x2048x8192 ![] bcast_S_S4x2048x8192 main_cst_2
  let main_v11 : IVec S4x2048x8192 1 := cmpf .olt main_v9 main_v10
  let main_c_3 : IVec S_ 1 := constantI S_ 1 1#1
  let main_v12 : IVec S_ 1 := (fun x v => Host.reduce IntOp.andi x v reducesTo_S4x2048x8192_S_d0_1_2 h_S_) main_v11 main_c_3
  let main_v13 : IVec S_ 1 := andi main_v8 main_v12
  main_v13
-- ==== Kernel.lean ====
abbrev S8192x512 : Shape := ⟨2, ![8192, 512]⟩
abbrev S4x2048x512 : Shape := ⟨3, ![4, 2048, 512]⟩
abbrev S4x2048x8192 : Shape := ⟨3, ![4, 2048, 8192]⟩
abbrev S1x128x512 : Shape := ⟨3, ![1, 128, 512]⟩
abbrev S1x128x8192 : Shape := ⟨3, ![1, 128, 8192]⟩
abbrev S128x512 : Shape := ⟨2, ![128, 512]⟩
abbrev S128x8192 : Shape := ⟨2, ![128, 8192]⟩
abbrev S128 : Shape := ⟨1, ![128]⟩
abbrev S128x1 : Shape := ⟨2, ![128, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S4x2048x512, .f32⟩
  | .hbm, ⟨2, _⟩ => ⟨S4x2048x8192, .f32⟩
  | .hbm, ⟨3, _⟩ => ⟨S8192x512, .bf16⟩
  | .hbm, ⟨4, _⟩ => ⟨S4x2048x8192, .f32⟩
  | .hbm, ⟨5, _⟩ => ⟨S4x2048x512, .f32⟩
  | .local _ .vmem, ⟨0, _⟩ => ⟨S1x128x512, .f32⟩
  | .local _ .vmem, ⟨1, _⟩ => ⟨S1x128x512, .f32⟩
  | .local _ .vmem, ⟨2, _⟩ => ⟨S1x128x8192, .f32⟩
  | .local _ .vmem, ⟨3, _⟩ => ⟨S1x128x8192, .f32⟩
  | .local _ .vmem, ⟨4, _⟩ => ⟨S8192x512, .bf16⟩
  | .local _ .vmem, ⟨5, _⟩ => ⟨S1x128x8192, .f32⟩
  | .local _ .vmem, ⟨6, _⟩ => ⟨S1x128x8192, .f32⟩
  | .local _ .vmem, ⟨7, _⟩ => ⟨S1x128x512, .f32⟩
  | .local _ .vmem, ⟨8, _⟩ => ⟨S1x128x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  reduces_S128x8192_S128 : S128x8192.Reduces [1] S128
  shapeCasts_S128_S128x1 : S128.ShapeCasts S128x1
  broadcasts_S128x1_S128x8192 : S128x1.Broadcasts S128x8192
  shapeCasts_S128x8192_S1x128x8192 : S128x8192.ShapeCasts S1x128x8192
  shapeCasts_S128x512_S1x128x512 : S128x512.ShapeCasts S1x128x512
  dot_S128x512_S8192x512_S128x8192_1_1_0_0_n_n_wf : DotDims.WF S128x512 S8192x512 S128x8192 [1] [1] [0] [0] [] []
  dot_S128x8192_S8192x512_S128x512_1_0_0_1_n_n_wf : DotDims.WF S128x8192 S8192x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S4x2048x512.size a
  hwx0_0 : ∀ i : grid0.Coords, EltTy.bits .f32 = 32 ∨ (Rect.block (s := S4x2048x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x8192.size a ≤ S4x2048x8192.size a
  hwx0_1 : ∀ i : grid0.Coords, EltTy.bits .f32 = 32 ∨ (Rect.block (s := S4x2048x8192) S1x128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x512.size a ≤ S8192x512.size a
  hwx0_2 : ∀ i : grid0.Coords, EltTy.bits .bf16 = 32 ∨ (Rect.block (s := S8192x512) S8192x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x8192.size a ≤ S4x2048x8192.size a
  hwx0_3 : ∀ i : grid0.Coords, EltTy.bits .f32 = 32 ∨ (Rect.block (s := S4x2048x8192) S1x128x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x512.size a ≤ S4x2048x512.size a
  hwx0_4 : ∀ i : grid0.Coords, EltTy.bits .f32 = 32 ∨ (Rect.block (s := S4x2048x512) S1x128x512.size (cc0_transform_4 i) (hinb0_4 i)).WholeWords (EltTy.packing .f32)

variable [Facts₀]

def dot_S128x512_S8192x512_S128x8192_1_1_0_0_n_n : DotDims S128x512 S8192x512 S128x8192 where
  lhsContracting := [1]
  rhsContracting := [1]
  lhsNonContracting := [0]
  rhsNonContracting := [0]
  lhsBatch := []
  rhsBatch := []
  wf := dot_S128x512_S8192x512_S128x8192_1_1_0_0_n_n_wf
def dot_S128x8192_S8192x512_S128x512_1_0_0_1_n_n : DotDims S128x8192 S8192x512 S128x512 where
  lhsContracting := [1]
  rhsContracting := [0]
  lhsNonContracting := [0]
  rhsNonContracting := [1]
  lhsBatch := []
  rhsBatch := []
  wf := dot_S128x8192_S8192x512_S128x512_1_0_0_1_n_n_wf

abbrev win0_0 : Pipeline.Window sig grid0 :=
  Pipeline.Window.ofSpec (Memref.whole main_arg1) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x128x8192.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x128x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S4x2048x512 : Shape := ⟨3, ![4, 2048, 512]⟩
abbrev S4x2048x8192 : Shape := ⟨3, ![4, 2048, 8192]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S4x2048x512, .f32⟩
  | .hbm, ⟨2, _⟩ => ⟨S4x2048x8192, .f32⟩
  | .hbm, ⟨3, _⟩ => ⟨S4x2048x8192, .f32⟩
  | .hbm, ⟨4, _⟩ => ⟨S_, .f32⟩
  | .hbm, ⟨5, _⟩ => ⟨S4x2048x8192, .f32⟩
  | .hbm, ⟨6, _⟩ => ⟨S4x2048x8192, .f32⟩
  | .hbm, ⟨7, _⟩ => ⟨S4x2048x8192, .f32⟩
  | .hbm, ⟨8, _⟩ => ⟨S_, .f32⟩
  | .hbm, ⟨9, _⟩ => ⟨S4x2048, .f32⟩
  | .hbm, ⟨10, _⟩ => ⟨S_, .f32⟩
  | .hbm, ⟨11, _⟩ => ⟨S4x2048, .f32⟩
  | .hbm, ⟨12, _⟩ => ⟨S4x2048, .f32⟩
  | .hbm, ⟨13, _⟩ => ⟨S4x2048x1, .f32⟩
  | .hbm, ⟨14, _⟩ => ⟨S4x2048x8192, .f32⟩
  | .hbm, ⟨15, _⟩ => ⟨S4x2048x8192, .f32⟩
  | .hbm, ⟨16, _⟩ => ⟨S4x2048x8192, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S4x2048x8192, .f32⟩
  | .hbm, ⟨21, _⟩ => ⟨S4x2048x8192, .f32⟩
  | .hbm, ⟨22, _⟩ => ⟨S4x2048x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S4x2048x8192 : S_.BroadcastsInDim S4x2048x8192 (![] : Fin 0 → Fin S4x2048x8192.rank)
  reducesTo_S4x2048x8192_S4x2048_d2 : S4x2048x8192.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x8192_0_1_2 : S4x2048x1.BroadcastsInDim S4x2048x8192 (![0, 1, 2] : Fin 3 → Fin S4x2048x8192.rank)
  dot_S4x2048x512_S8192x512_S4x2048x8192_2_1_01_0_n_n_wf : DotDims.WF S4x2048x512 S8192x512 S4x2048x8192 [2] [1] [0, 1] [0] [] []
  dot_S4x2048x8192_S8192x512_S4x2048x512_2_0_01_1_n_n_wf : DotDims.WF S4x2048x8192 S8192x512 S4x2048x512 [2] [0] [0, 1] [1] [] []

variable [Facts₀]

def dot_S4x2048x512_S8192x512_S4x2048x8192_2_1_01_0_n_n : DotDims S4x2048x512 S8192x512 S4x2048x8192 where
  lhsContracting := [2]
  rhsContracting := [1]
  lhsNonContracting := [0, 1]
  rhsNonContracting := [0]
  lhsBatch := []
  rhsBatch := []
  wf := dot_S4x2048x512_S8192x512_S4x2048x8192_2_1_01_0_n_n_wf
def dot_S4x2048x8192_S8192x512_S4x2048x512_2_0_01_1_n_n : DotDims S4x2048x8192 S8192x512 S4x2048x512 where
  lhsContracting := [2]
  rhsContracting := [0]
  lhsNonContracting := [0, 1]
  rhsNonContracting := [1]
  lhsBatch := []
  rhsBatch := []
  wf := dot_S4x2048x8192_S8192x512_S4x2048x512_2_0_01_1_n_n_wf

class Facts : Prop extends Facts₀ where

variable [Facts]
-- ==== Proof.Attention.lean ====
/-
  Masked softmax attention over a shared bank, as functions of the argument arrays.

  A bank `x` of 8192 rows of 512 numbers serves as keys and as values. For one query row `q` (512 numbers) and one
  mask row `w` (8192 numbers) the score of bank row `i` is the inner product of `q` with that row plus `w i`
  times a fixed large negative scale. The scores are turned into weights by subtracting their maximum and
  exponentiating; the weights divided by their sum are the attention probabilities, and the output row is the
  probabilities' combination of the bank's rows.

  Everything is over the extended reals with exact operations. Both float words that occur (the mask scale and
  the start value of the maximum) stay as words: they are the same on both sides of the comparison and are never
  evaluated.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- The bank: 8192 rows of 512 entries. -/
abbrev Bank := (⟨2, ![8192, 512]⟩ : Shape).Idx → EReal

/-- The score of bank row `i` for the query row `q` under the mask row `w`: `⟨q, x i⟩ + w i · scale`. -/
def score (x : Bank) (q : Fin 512 → EReal) (w : Fin 8192 → EReal) (i : Fin 8192) : EReal :=
  (∑ k : Fin 512, q k * x (ix2 i k)) + w i * Ideal.ofBits .f32 0xCE6E6B28#32

/-- The largest score of the row, as the fold of `max` over the bank rows from the start value. -/
def top (x : Bank) (q : Fin 512 → EReal) (w : Fin 8192 → EReal) : EReal :=
  (Finset.univ : Finset (Fin 8192)).fold max (Ideal.ofBits .f32 0xFF800000#32) (score x q w)

/-- The unnormalized weight of bank row `i`: `exp (score i − top)`. -/
def weight (x : Bank) (q : Fin 512 → EReal) (w : Fin 8192 → EReal) (i : Fin 8192) : EReal :=
  Ideal.exp (score x q w i - top x q w)

/-- The sum of the row's weights. -/
def total (x : Bank) (q : Fin 512 → EReal) (w : Fin 8192 → EReal) : EReal :=
  ∑ i : Fin 8192, weight x q w i

/-- The attention probability of bank row `i`: its weight over the total. -/
def prob (x : Bank) (q : Fin 512 → EReal) (w : Fin 8192 → EReal) (i : Fin 8192) : EReal :=
  Ideal.div (weight x q w i) (total x q w)

/-- Entry `j` of the output row: the probabilities' combination of column `j` of the bank. -/
def mix (x : Bank) (q : Fin 512 → EReal) (w : Fin 8192 → EReal) (j : Fin 512) : EReal :=
  ∑ i : Fin 8192, prob x q w i * x (ix2 i j)

/-- Row `(b, t)` of a `[B, T, n]` array. -/
abbrev rowOf {B T n : ℕ} (a : (⟨3, ![B, T, n]⟩ : Shape).Idx → EReal) (b : Fin B) (t : Fin T) : Fin n → EReal :=
  fun k => a (ix3 b t k)

/-- The attention array: at `(b, t, i)` the probability of bank row `i` for query row `(b, t)` under mask row `(b, t)`. -/
def attn (x : Bank) (q : (⟨3, ![4, 2048, 512]⟩ : Shape).Idx → EReal) (w : (⟨3, ![4, 2048, 8192]⟩ : Shape).Idx → EReal) :
    (⟨3, ![4, 2048, 8192]⟩ : Shape).Idx → EReal :=
  fun y => prob x (rowOf q (y 0) (y 1)) (rowOf w (y 0) (y 1)) (y 2)

/-- The output array: at `(b, t, j)` entry `j` of the output row of query row `(b, t)`. -/
def out (x : Bank) (q : (⟨3, ![4, 2048, 512]⟩ : Shape).Idx → EReal) (w : (⟨3, ![4, 2048, 8192]⟩ : Shape).Idx → EReal) :
    (⟨3, ![4, 2048, 512]⟩ : Shape).Idx → EReal :=
  fun y => mix x (rowOf q (y 0) (y 1)) (rowOf w (y 0) (y 1)) (y 2)

/-- The start value of a `max` fold is below the fold, so taking `max` with it once more changes nothing. -/
theorem max_start_fold {ι : Type} (s : Finset ι) (a : EReal) (f : ι → EReal) :
    max a (s.fold max a f) = s.fold max a f :=
  max_eq_right (Finset.le_fold_max a |>.mpr (Or.inl le_rfl))

end Cert.Attention

end
-- ==== Proof.ReferenceAttention.lean ====
/-
  The reference computes the attention arrays of `Attention.lean`.

  Read one operation at a time, the reference's score array at `(b, t, i)` is the inner product of query row `(b, t)`
  with bank row `i` plus the mask entry times the scale; its row maximum is the fold of `max` over the 8192 scores of the
  row from the start value, once more joined with that start value (which changes nothing); the weights, their sum
  (from the start value zero) and the quotient follow entry by entry; and the second contraction sums the
  probabilities against a column of the bank.
-/
import proofs.«175150_j58093727645899_2_alg».proof.Proof.Gen.ReferenceIdeal.Read
import proofs.«175150_j58093727645899_2_alg».proof.Proof.Attention

noncomputable section

namespace Cert.ReferenceIdeal.RefValue

open Cert.ReferenceIdeal Cert.ReferenceIdeal.Gen Cert.ReferenceIdeal.Read Idealize.ShloMosaic Idealize.ShloMosaic.ValueIdx
open Cert.Attention

variable (x0 : (⟨S8192x512, .f32⟩ : BufTy).Contents (Elt Ideal)) (x1 : (⟨S4x2048x512, .f32⟩ : BufTy).Contents (Elt Ideal))
  (x2 : (⟨S4x2048x8192, .f32⟩ : BufTy).Contents (Elt Ideal))

/-- The score array at `(b, t, i)` is the score of bank row `i` for query row and mask row `(b, t)`. -/
theorem score_at (b : Fin 4) (t : Fin 2048) (i : Fin 8192) :
    val_main_v3 (F := Ideal) x0 x1 x2 (ix3 b t i) = score x0 (rowOf x1 b t) (rowOf x2 b t) i := by
  have el : ∀ k, lidx_main_v0 (ix3 b t i) k = ix3 b t k := fun k => funext fun a => Fin.ext (by
    match a with | ⟨0, _⟩ => rfl | ⟨1, _⟩ => rfl | ⟨2, _⟩ => rfl)
  have er : ∀ k, ridx_main_v0 (ix3 b t i) k = ix2 i k := fun k => funext fun a => Fin.ext (by
    match a with | ⟨0, _⟩ => rfl | ⟨1, _⟩ => rfl)
  rw [val_main_v3_apply, val_main_v0_apply, val_main_v2_apply, val_main_v1_apply, val_main_cst_apply]
  simp only [el, er]
  rfl

/-- A row index `(b, t)` with the coordinate `i` of the reduced axis put back is `(b, t, i)`. -/
theorem lift_row (h : S4x2048x8192.Reduces [2] S4x2048) (b : Fin 4) (t : Fin 2048) (i : Fin 8192) :
    h.lift (ix2 b t) i = ix3 b t i := by
  funext c; apply Fin.ext
  fin_cases c <;> rfl

/-- The row maximum at `(b, t)`, after the extra join with the start value, is the largest score of the row. -/
theorem top_at (b : Fin 4) (t : Fin 2048) :
    val_main_v6 (F := Ideal) x0 x1 x2 (ix2 b t) = top x0 (rowOf x1 b t) (rowOf x2 b t) := by
  have hred : S4x2048x8192.Reduces [2] S4x2048 := by decide
  rw [val_main_v6_apply, val_main_v5_apply, val_main_cst_1_apply]
  unfold val_main_v4
  rw [Host.reduce_eq_fold_single FloatOps.maximumf _ _ reducesTo_S4x2048x8192_S4x2048_d2 hred h_S_]
  have hf : (val_main_v3 (F := Ideal) x0 x1 x2 ∘ hred.lift (ix2 b t)) = score x0 (rowOf x1 b t) (rowOf x2 b t) :=
    funext fun i => (congrArg (val_main_v3 (F := Ideal) x0 x1 x2) (lift_row hred b t i)).trans (score_at x0 x1 x2 b t i)
  rw [hf]
  exact max_start_fold _ _ _

/-- The exponentials at `(b, t, i)` are the weights. -/
theorem weight_at (b : Fin 4) (t : Fin 2048) (i : Fin 8192) :
    val_main_v10 (F := Ideal) x0 x1 x2 (ix3 b t i) = weight x0 (rowOf x1 b t) (rowOf x2 b t) i := by
  have e : idx_main_v7 (idx_main_v8 (ix3 b t i)) = ix2 b t := funext fun a => Fin.ext (by
    match a with | ⟨0, _⟩ => rfl | ⟨1, _⟩ => rfl)
  rw [val_main_v10_apply, val_main_v9_apply, val_main_v8_apply, val_main_v7_apply, e, top_at, score_at]
  rfl

/-- The row sums at `(b, t)`, from the start value zero, are the totals. -/
theorem total_at (b : Fin 4) (t : Fin 2048) :
    val_main_v11 (F := Ideal) x0 x1 x2 (ix2 b t) = total x0 (rowOf x1 b t) (rowOf x2 b t) := by
  have e : ∀ k, idx_main_v11 (ix2 b t) k = ix3 b t k := fun k => funext fun a => Fin.ext (by
    match a with | ⟨0, _⟩ => rfl | ⟨1, _⟩ => rfl | ⟨2, _⟩ => rfl)
  rw [val_main_v11_apply]
  simp only [e, weight_at]
  show Ideal.ofBits .f32 0x00000000#32 + _ = _
  rw [Ideal.ofBits_zero_f32, zero_add]
  rfl

/-- The reference's first result is the attention array. -/
theorem attn_eq : val_main_v14 (F := Ideal) x0 x1 x2 = attn x0 x1 x2 := by
  funext y
  obtain ⟨b, t, i, rfl⟩ : ∃ (b : Fin 4) (t : Fin 2048) (i : Fin 8192), y = ix3 b t i := ⟨y 0, y 1, y 2, eq_ix3 y⟩
  have e : idx_main_v12 (idx_main_v13 (ix3 b t i)) = ix2 b t := funext fun a => Fin.ext (by
    match a with | ⟨0, _⟩ => rfl | ⟨1, _⟩ => rfl)
  rw [val_main_v14_apply, val_main_v13_apply, val_main_v12_apply, e, total_at, weight_at]
  rfl

/-- The reference's second result is the output array. -/
theorem out_eq : val_main_v15 (F := Ideal) x0 x1 x2 = out x0 x1 x2 := by
  funext y
  obtain ⟨b, t, j, rfl⟩ : ∃ (b : Fin 4) (t : Fin 2048) (j : Fin 512), y = ix3 b t j := ⟨y 0, y 1, y 2, eq_ix3 y⟩
  have el : ∀ k, lidx_main_v15 (ix3 b t j) k = ix3 b t k := fun k => funext fun a => Fin.ext (by
    match a with | ⟨0, _⟩ => rfl | ⟨1, _⟩ => rfl | ⟨2, _⟩ => rfl)
  have er : ∀ k, ridx_main_v15 (ix3 b t j) k = ix2 k j := fun k => funext fun a => Fin.ext (by
    match a with | ⟨0, _⟩ => rfl | ⟨1, _⟩ => rfl)
  rw [val_main_v15_apply, attn_eq]
  simp only [el, er]
  rfl

end Cert.ReferenceIdeal.RefValue

end
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.KernelTile.lean ====
/-
  One tile of the kernel: what the body computes from its three loaded blocks.

  The body is handed a block `Q` of 128 query rows (as `[1, 128, 512]`), the whole bank `X` (`[8192, 512]`) and the
  matching block `W` of 128 mask rows (`[1, 128, 8192]`). Row by row it forms the scores (a contraction of the query
  row with every bank row, into a zero accumulator, plus the mask row times the scale), their maximum along the row
  (a lane reduction, made a column and repeated along the row), the exponentials of the differences, their sum along
  the row (again a lane reduction made a column and repeated) and the quotient; a second contraction, of the quotients
  with the bank's columns into a zero accumulator, gives the output rows. Changes of float format are the identity on
  the extended reals.

  So the first stored value at `(r, i)` is `prob X (row r of Q) (row r of W) i` and the second at `(r, j)` is
  `mix X (row r of Q) (row r of W) j`.
-/
import proofs.«175150_j58093727645899_2_alg».proof.Proof.Gen.KernelIdeal.Skeleton
import proofs.«175150_j58093727645899_2_alg».proof.Proof.Attention
import proofs.«175150_j58093727645899_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx
open Cert.Attention Cert.Lib.ColumnLayout

/-! ## The two contractions read at an entry -/

theorem qk_lhs0 (j : S128x8192.Idx) (q : dot_S128x512_S8192x512_S128x8192_1_1_0_0_n_n.contr.Idx) : (dot_S128x512_S8192x512_S128x8192_1_1_0_0_n_n.lhsIdx j q 0).val = (j 0).val := by
  unfold DotDims.lhsIdx
  rw [dif_neg (show ¬(0 : Fin S128x512.rank) ∈ dot_S128x512_S8192x512_S128x8192_1_1_0_0_n_n.lhsBatch by decide), dif_pos (show (0 : Fin S128x512.rank) ∈ dot_S128x512_S8192x512_S128x8192_1_1_0_0_n_n.lhsNonContracting by decide)]
  rfl

theorem qk_rhs0 (j : S128x8192.Idx) (q : dot_S128x512_S8192x512_S128x8192_1_1_0_0_n_n.contr.Idx) : (dot_S128x512_S8192x512_S128x8192_1_1_0_0_n_n.rhsIdx j q 0).val = (j 1).val := by
  unfold DotDims.rhsIdx
  rw [dif_neg (show ¬(0 : Fin S8192x512.rank) ∈ dot_S128x512_S8192x512_S128x8192_1_1_0_0_n_n.rhsBatch by decide), dif_pos (show (0 : Fin S8192x512.rank) ∈ dot_S128x512_S8192x512_S128x8192_1_1_0_0_n_n.rhsNonContracting by decide)]
  rfl

/-- The first contraction into the zero accumulator, at `(r, i)`: the inner product of row `r` of the left operand with
    row `i` of the right one. -/
theorem qk_at (A : FVec Ideal S128x512 .bf16) (B : FVec Ideal S8192x512 .bf16) (r : Fin 128) (i : Fin 8192) :
    matmul dot_S128x512_S8192x512_S128x8192_1_1_0_0_n_n none A B (constant (F := Ideal) S128x8192 .f32 0x00000000#32) (ix2 r i)
      = ∑ k : Fin 512, A (ix2 r k) * B (ix2 i k) := by
  simp only [matmul]
  rw [Ideal.matmul_constant_zero_apply, ← Equiv.sum_comp (contrEquiv1 dot_S128x512_S8192x512_S128x8192_1_1_0_0_n_n 512 rfl rfl).symm]
  refine Finset.sum_congr rfl fun k _ => ?_
  have hk := contrEquiv1_symm_val dot_S128x512_S8192x512_S128x8192_1_1_0_0_n_n 512 rfl rfl k
  have el : dot_S128x512_S8192x512_S128x8192_1_1_0_0_n_n.lhsIdx (ix2 r i) ((contrEquiv1 dot_S128x512_S8192x512_S128x8192_1_1_0_0_n_n 512 rfl rfl).symm k) = ix2 r k := funext fun a => Fin.ext (by
    match a with
    | ⟨0, _⟩ => exact qk_lhs0 _ _
    | ⟨1, _⟩ => exact (dot_S128x512_S8192x512_S128x8192_1_1_0_0_n_n.lhsIdx_val_of_single rfl _ _).trans hk)
  have er : dot_S128x512_S8192x512_S128x8192_1_1_0_0_n_n.rhsIdx (ix2 r i) ((contrEquiv1 dot_S128x512_S8192x512_S128x8192_1_1_0_0_n_n 512 rfl rfl).symm k) = ix2 i k := funext fun a => Fin.ext (by
    match a with
    | ⟨0, _⟩ => exact qk_rhs0 _ _
    | ⟨1, _⟩ => exact (dot_S128x512_S8192x512_S128x8192_1_1_0_0_n_n.rhsIdx_val_of_single rfl _ _).trans hk)
  rw [el, er]

theorem av_lhs0 (j : S128x512.Idx) (q : dot_S128x8192_S8192x512_S128x512_1_0_0_1_n_n.contr.Idx) : (dot_S128x8192_S8192x512_S128x512_1_0_0_1_n_n.lhsIdx j q 0).val = (j 0).val := by
  unfold DotDims.lhsIdx
  rw [dif_neg (show ¬(0 : Fin S128x8192.rank) ∈ dot_S128x8192_S8192x512_S128x512_1_0_0_1_n_n.lhsBatch by decide), dif_pos (show (0 : Fin S128x8192.rank) ∈ dot_S128x8192_S8192x512_S128x512_1_0_0_1_n_n.lhsNonContracting by decide)]
  rfl

theorem av_rhs1 (j : S128x512.Idx) (q : dot_S128x8192_S8192x512_S128x512_1_0_0_1_n_n.contr.Idx) : (dot_S128x8192_S8192x512_S128x512_1_0_0_1_n_n.rhsIdx j q 1).val = (j 1).val := by
  unfold DotDims.rhsIdx
  rw [dif_neg (show ¬(1 : Fin S8192x512.rank) ∈ dot_S128x8192_S8192x512_S128x512_1_0_0_1_n_n.rhsBatch by decide), dif_pos (show (1 : Fin S8192x512.rank) ∈ dot_S128x8192_S8192x512_S128x512_1_0_0_1_n_n.rhsNonContracting by decide)]
  rfl

/-- The second contraction into the zero accumulator, at `(r, j)`: row `r` of the left operand against column `j` of the
    right one. -/
theorem av_at (A : FVec Ideal S128x8192 .bf16) (B : FVec Ideal S8192x512 .bf16) (r : Fin 128) (j : Fin 512) :
    matmul dot_S128x8192_S8192x512_S128x512_1_0_0_1_n_n none A B (constant (F := Ideal) S128x512 .f32 0x00000000#32) (ix2 r j)
      = ∑ k : Fin 8192, A (ix2 r k) * B (ix2 k j) := by
  simp only [matmul]
  rw [Ideal.matmul_constant_zero_apply, ← Equiv.sum_comp (contrEquiv1 dot_S128x8192_S8192x512_S128x512_1_0_0_1_n_n 8192 rfl rfl).symm]
  refine Finset.sum_congr rfl fun k _ => ?_
  have hk := contrEquiv1_symm_val dot_S128x8192_S8192x512_S128x512_1_0_0_1_n_n 8192 rfl rfl k
  have el : dot_S128x8192_S8192x512_S128x512_1_0_0_1_n_n.lhsIdx (ix2 r j) ((contrEquiv1 dot_S128x8192_S8192x512_S128x512_1_0_0_1_n_n 8192 rfl rfl).symm k) = ix2 r k := funext fun a => Fin.ext (by
    match a with
    | ⟨0, _⟩ => exact av_lhs0 _ _
    | ⟨1, _⟩ => exact (dot_S128x8192_S8192x512_S128x512_1_0_0_1_n_n.lhsIdx_val_of_single rfl _ _).trans hk)
  have er : dot_S128x8192_S8192x512_S128x512_1_0_0_1_n_n.rhsIdx (ix2 r j) ((contrEquiv1 dot_S128x8192_S8192x512_S128x512_1_0_0_1_n_n 8192 rfl rfl).symm k) = ix2 k j := funext fun a => Fin.ext (by
    match a with
    | ⟨0, _⟩ => exact (dot_S128x8192_S8192x512_S128x512_1_0_0_1_n_n.rhsIdx_val_of_single rfl _ _).trans hk
    | ⟨1, _⟩ => exact av_rhs1 _ _)
  rw [el, er]

/-! ## The lane reductions and the column layout, for any tile -/

/-- Row `r` with the coordinate `i` of the reduced lane axis put back is `(r, i)`. -/
theorem lift_lane (h : S128x8192.Reduces [1] S128) (r : Fin 128) (i : Fin 8192) : h.lift (ix1 r) i = ix2 r i := by
  funext c; apply Fin.ext
  fin_cases c <;> rfl

/-- The lane maximum of a tile at row `r`: the fold of `max` over the row from the start value. -/
theorem laneMax_at (S : FVec Ideal S128x8192 .f32) (h : S128x8192.Reduces [1] S128) (hφ : FKind.Formats .f32)
    (hacc : (0xFF800000#32 : BitVec 32) = FKind.maximumf.neutral .f32 hφ) (r : Fin 128) :
    multiReduction .maximumf [1] S128 S 0xFF800000#32 h hφ hacc (ix1 r)
      = (Finset.univ : Finset (Fin 8192)).fold max (Ideal.ofBits .f32 0xFF800000#32) (fun i => S (ix2 r i)) := by
  refine (Ideal.multiReduction_maximumf_single S 0xFF800000#32 h hφ hacc (ix1 r)).trans ?_
  exact congrArg (fun f => Finset.fold max (Ideal.ofBits .f32 0xFF800000#32) f (Finset.univ : Finset (Fin 8192)))
    (funext fun i => congrArg S (lift_lane h r i))

/-- The lane sum of a tile at row `r`: the sum over the row. -/
theorem laneSum_at (E : FVec Ideal S128x8192 .f32) (h : S128x8192.Reduces [1] S128) (hφ : FKind.Formats .f32)
    (hacc : (0x00000000#32 : BitVec 32) = FKind.add.neutral .f32 hφ) (r : Fin 128) :
    multiReduction .add [1] S128 E 0x00000000#32 h hφ hacc (ix1 r) = ∑ i : Fin 8192, E (ix2 r i) := by
  refine (Ideal.multiReduction_add_single E 0x00000000#32 h hφ hacc (ix1 r)).trans ?_
  exact Finset.sum_congr rfl fun i _ => congrArg E (lift_lane h r i)

/-- A value per row, made a column and repeated along the row, reads the row's value at every entry of the row. -/
theorem column_at (v : FVec Ideal S128 .f32) (hc : S128.ShapeCasts S128x1) (hb : S128x1.Broadcasts S128x8192)
    (r : Fin 128) (i : Fin 8192) : broadcastTo S128x8192 (shapeCast S128x1 v hc) hb (ix2 r i) = v (ix1 r) :=
  (broadcastTo_a1_ab_apply _ hb r i).trans (shapeCast_a_a1_apply v hc r 0)

/-! ## The body's values, in three steps -/

variable (P0 : Vec Ideal S1x128x512 .f32) (P1 : Vec Ideal S8192x512 .bf16) (P2 : Vec Ideal S1x128x8192 .f32)

/-- The tile's scores, as the body's operations. -/
def scores : FVec Ideal S128x8192 .f32 :=
  addf (matmul dot_S128x512_S8192x512_S128x8192_1_1_0_0_n_n none (truncf .bf16 (shapeCast S128x512 P0 shapeCasts_S1x128x512_S128x512) bitsLt_bf16_f32)
      (k0_pay1 P1) (constant S128x8192 .f32 0x00000000#32))
    (mulf (shapeCast S128x8192 P2 shapeCasts_S1x128x8192_S128x8192) (broadcast S128x8192 (Scalar.ofBits .f32 0xCE6E6B28#32)))

/-- The exponentials of a tile's scores less their row maxima, as the body's operations. -/
def weights (S : FVec Ideal S128x8192 .f32) : FVec Ideal S128x8192 .f32 :=
  exp (subf S (broadcastTo S128x8192 (shapeCast S128x1
    (multiReduction .maximumf [1] S128 S 0xFF800000#32 reduces_S128x8192_S128 (.inl rfl) rfl) shapeCasts_S128_S128x1)
    broadcasts_S128x1_S128x8192))

/-- The weights over their row sums, as the body's operations. -/
def probs (S : FVec Ideal S128x8192 .f32) : FVec Ideal S128x8192 .f32 :=
  divf (weights S) (broadcastTo S128x8192 (shapeCast S128x1
    (multiReduction .add [1] S128 (weights S) 0x00000000#32 reduces_S128x8192_S128 (.inl rfl) rfl) shapeCasts_S128_S128x1)
    broadcasts_S128x1_S128x8192)

/-- The body's first stored value, before its final reshape, is these three steps. -/
theorem pay2_steps : k0_pay2 (F := Ideal) P0 P1 P2 = probs (scores P0 P1 P2) := rfl

theorem scores_at (r : Fin 128) (i : Fin 8192) :
    scores P0 P1 P2 (ix2 r i) = score P1 (rowOf P0 0 r) (rowOf P2 0 r) i := by
  show matmul (F := Ideal) dot_S128x512_S8192x512_S128x8192_1_1_0_0_n_n none _ _ _ (ix2 r i) + shapeCast S128x8192 P2 _ (ix2 r i) * Ideal.ofBits .f32 0xCE6E6B28#32 = _
  rw [qk_at, shapeCast_1ab_ab_apply]
  refine congrArg (· + _) (Finset.sum_congr rfl fun k _ => ?_)
  show shapeCast S128x512 P0 _ (ix2 r k) * shapeCast S8192x512 P1 _ (ix2 i k) = _
  rw [shapeCast_1ab_ab_apply, shapeCast_self]

theorem weights_at (S : FVec Ideal S128x8192 .f32) (r : Fin 128) (i : Fin 8192) :
    weights S (ix2 r i) = Ideal.exp (S (ix2 r i)
      - (Finset.univ : Finset (Fin 8192)).fold max (Ideal.ofBits .f32 0xFF800000#32) (fun k => S (ix2 r k))) :=
  congrArg (fun z => Ideal.exp (S (ix2 r i) - z)) ((column_at _ _ _ r i).trans (laneMax_at S _ _ _ r))

theorem probs_at (S : FVec Ideal S128x8192 .f32) (r : Fin 128) (i : Fin 8192) :
    probs S (ix2 r i) = Ideal.div (weights S (ix2 r i)) (∑ k : Fin 8192, weights S (ix2 r k)) :=
  congrArg (Ideal.div (weights S (ix2 r i))) ((column_at _ _ _ r i).trans (laneSum_at (weights S) _ _ _ r))

/-- THE FIRST STORED VALUE at `(r, i)`: the attention probability of bank row `i` for row `r` of the tile. -/
theorem pay2_at (r : Fin 128) (i : Fin 8192) :
    k0_pay2 (F := Ideal) P0 P1 P2 (ix2 r i) = prob P1 (rowOf P0 0 r) (rowOf P2 0 r) i := by
  have hs : (fun k => scores P0 P1 P2 (ix2 r k)) = score P1 (rowOf P0 0 r) (rowOf P2 0 r) :=
    funext fun k => scores_at P0 P1 P2 r k
  have hw : ∀ k, weights (scores P0 P1 P2) (ix2 r k) = weight P1 (rowOf P0 0 r) (rowOf P2 0 r) k := fun k => by
    rw [weights_at, hs, scores_at]; rfl
  rw [pay2_steps, probs_at, hw]
  simp only [hw]
  rfl

/-- THE SECOND STORED VALUE, before its final reshape, at `(r, j)`: entry `j` of the output row of row `r` of the tile. -/
theorem out_at (r : Fin 128) (j : Fin 512) :
    matmul dot_S128x8192_S8192x512_S128x512_1_0_0_1_n_n none (truncf .bf16 (k0_pay2 (F := Ideal) P0 P1 P2) bitsLt_bf16_f32) (k0_pay1 P1)
      (constant (F := Ideal) S128x512 .f32 0x00000000#32) (ix2 r j) = mix P1 (rowOf P0 0 r) (rowOf P2 0 r) j := by
  rw [av_at]
  refine Finset.sum_congr rfl fun k _ => ?_
  show k0_pay2 (F := Ideal) P0 P1 P2 (ix2 r k) * shapeCast S8192x512 P1 _ (ix2 k j) = _
  rw [pay2_at, shapeCast_self]

end Cert.KernelIdeal.Tile

end
-- ==== Proof.TilesToArrays.lean ====
/-
  From the tiles to the whole arrays.

  The grid has 4 × 16 points. At point `(b, s)` the body is handed rows `128 s … 128 s + 127` of batch `b` of the query
  and of the mask, and the whole bank — which a change of float format, the identity on the extended reals, made from the
  first argument before the launch — and what it leaves is written back to the same rows of batch `b` of the two results.
  A row of a tile is therefore a row of the whole arrays, so by the tile's values each point writes back the block of
  the attention array, and of the output array, that its rows name; the 64 blocks cover both results (row `n` of batch `b`
  is in the block of point `(b, n / 128)`), so after the run the two results ARE those arrays.
-/
import proofs.«175150_j58093727645899_2_alg».proof.Proof.Gen.KernelIdeal.Value
import proofs.«175150_j58093727645899_2_alg».proof.Proof.KernelTile
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Attention Cert.KernelIdeal.Tile

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## What the body leaves, for any three blocks -/

/-- The first result's buffer after the body, at `(u, r, i)`: the probability of bank row `i` for row `r` of the blocks. -/
theorem left3_at (x0 : Vec Ideal S1x128x512 .f32) (x1 : Vec Ideal S1x128x8192 .f32) (x2 : Vec Ideal S8192x512 .bf16)
    (u : Fin 1) (r : Fin 128) (i : Fin 8192) :
    out0_3 x0 x1 x2 (ix3 u r i) = prob x2 (rowOf x0 0 r) (rowOf x1 0 r) i := by
  unfold out0_3
  rw [View.canon_unit_zero zeros3]
  simp only [View.ld_unit_zero (S := S1x128x512) zeros3, View.ld_unit_zero (S := S8192x512) zeros2,
    View.ld_unit_zero (S := S1x128x8192) zeros3]
  show shapeCast S1x128x8192 (k0_pay2 (F := Ideal) x0 x2 x1) _ (ix3 u r i) = _
  rw [shapeCast_ab_1ab_apply, pay2_at]

/-- The second result's buffer after the body, at `(u, r, j)`: entry `j` of the output row of row `r` of the blocks. -/
theorem left4_at (x0 : Vec Ideal S1x128x512 .f32) (x1 : Vec Ideal S1x128x8192 .f32) (x2 : Vec Ideal S8192x512 .bf16)
    (u : Fin 1) (r : Fin 128) (j : Fin 512) :
    out0_4 x0 x1 x2 (ix3 u r j) = mix x2 (rowOf x0 0 r) (rowOf x1 0 r) j := by
  unfold out0_4
  rw [View.canon_unit_zero zeros3]
  simp only [View.ld_unit_zero (S := S1x128x512) zeros3, View.ld_unit_zero (S := S8192x512) zeros2,
    View.ld_unit_zero (S := S1x128x8192) zeros3]
  show shapeCast S1x128x512 (matmul (F := Ideal) dot_S128x8192_S8192x512_S128x512_1_0_0_1_n_n none
    (truncf .bf16 (k0_pay2 (F := Ideal) x0 x2 x1) bitsLt_bf16_f32) (k0_pay1 x2) (constant S128x512 .f32 0x00000000#32)) _ (ix3 u r j) = _
  rw [shapeCast_ab_1ab_apply, out_at]

/-! ## Which rows a point is handed -/

/-- The index maps over the 64 points: the query, the mask and the second result move with the first result on the batch
    and row-block axes and stay at `0` on the last one; the bank's block is the whole bank at every point. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = win0_3.index t (1 : Fin 3)
    ∧ win0_1.index t (2 : Fin 3) = 0
    ∧ win0_2.index t (0 : Fin 2) = 0 ∧ win0_2.index t (1 : Fin 2) = 0
    ∧ win0_4.index t (0 : Fin 3) = win0_3.index t (0 : Fin 3) ∧ win0_4.index t (1 : Fin 3) = win0_3.index t (1 : Fin 3)
    ∧ win0_4.index t (2 : Fin 3) = 0
    ∧ win0_3.index t (2 : Fin 3) = 0 ∧ win0_3.index t (0 : Fin 3) < 4 ∧ win0_3.index t (1 : Fin 3) < 16 :=
  (by decide +kernel : ∀ t : Fin grid0.N, _)

/-- Every batch and row block is some point's, for both results. -/
theorem idx_onto : ∀ (q0 : Fin 4) (q1 : Fin 16), ∃ t : Fin cfg0.N,
    win0_3.index t = ![q0.val, q1.val, 0] ∧ win0_4.index t = ![q0.val, q1.val, 0] :=
  (by decide +kernel : ∀ (q0 : Fin 4) (q1 : Fin 16), ∃ t : Fin grid0.N,
    win0_3.index t = ![q0.val, q1.val, 0] ∧ win0_4.index t = ![q0.val, q1.val, 0])

/-- The bank as the region finds it is the first argument: the one operation before the launch changes its float
    format only. -/
theorem bank_eq (c : Dev nD) : (V m c main_v0 : S8192x512.Idx → EReal) = (m ((c : Thread nD τ).loc main_arg0)) := by
  dsimp only [V, hostOps0]; after_results; rfl

/-- The bank's block at any point is the whole first argument. -/
theorem bank_block (c : Dev nD) (t : Fin cfg0.N) : iblk m c 2 t = (m ((c : Thread nD τ).loc main_arg0)) := by
  obtain ⟨-, -, -, -, -, -, f6, f7, -⟩ := idx_facts t
  funext z
  show (V m c main_v0 : S8192x512.Idx → EReal) (((cfg0.win 2).blk t).view.emb z) = _
  rw [bank_eq]
  refine congrArg _ (funext fun a => Fin.ext ?_)
  match a with
  | ⟨0, _⟩ => show win0_2.index t (0 : Fin 2) * 8192 + 1 * (z 0).val = (z 0).val; omega
  | ⟨1, _⟩ => show win0_2.index t (1 : Fin 2) * 512 + 1 * (z 1).val = (z 1).val; omega

/-- Row `r` of the query's block at point `t` is the query's row `(b, s)` when `b` is the point's batch and `s` its
    row block's `r`-th row. -/
theorem query_row (c : Dev nD) (t : Fin cfg0.N) (r : Fin 128) (b : Fin 4) (s : Fin 2048)
    (hb : b.val = win0_3.index t (0 : Fin 3)) (hs : s.val = win0_3.index t (1 : Fin 3) * 128 + r.val) :
    rowOf (B := 1) (T := 128) (n := 512) (iblk m c 0 t) 0 r = rowOf (m ((c : Thread nD τ).loc main_arg1)) b s := by
  obtain ⟨f0, f1, f2, -⟩ := idx_facts t
  funext k
  show V m c main_arg1 (((cfg0.win 0).blk t).view.emb (ix3 (0 : Fin 1) r k)) = (m ((c : Thread nD τ).loc main_arg1)) (ix3 b s k)
  rw [V_main_arg1]
  refine congrArg _ (funext fun a => Fin.ext ?_)
  match a with
  | ⟨0, _⟩ => show win0_0.index t (0 : Fin 3) * 1 + 1 * 0 = b.val; omega
  | ⟨1, _⟩ => show win0_0.index t (1 : Fin 3) * 128 + 1 * r.val = s.val; omega
  | ⟨2, _⟩ => show win0_0.index t (2 : Fin 3) * 512 + 1 * k.val = k.val; omega

/-- The same for the mask. -/
theorem mask_row (c : Dev nD) (t : Fin cfg0.N) (r : Fin 128) (b : Fin 4) (s : Fin 2048)
    (hb : b.val = win0_3.index t (0 : Fin 3)) (hs : s.val = win0_3.index t (1 : Fin 3) * 128 + r.val) :
    rowOf (B := 1) (T := 128) (n := 8192) (iblk m c 1 t) 0 r = rowOf (m ((c : Thread nD τ).loc main_arg2)) b s := by
  obtain ⟨-, -, -, f3, f4, f5, -⟩ := idx_facts t
  funext k
  show V m c main_arg2 (((cfg0.win 1).blk t).view.emb (ix3 (0 : Fin 1) r k)) = (m ((c : Thread nD τ).loc main_arg2)) (ix3 b s k)
  rw [V_main_arg2]
  refine congrArg _ (funext fun a => Fin.ext ?_)
  match a with
  | ⟨0, _⟩ => show win0_1.index t (0 : Fin 3) * 1 + 1 * 0 = b.val; omega
  | ⟨1, _⟩ => show win0_1.index t (1 : Fin 3) * 128 + 1 * r.val = s.val; omega
  | ⟨2, _⟩ => show win0_1.index t (2 : Fin 3) * 8192 + 1 * k.val = k.val; omega

theorem prob_congr {x x' : Bank} {q q' : Fin 512 → EReal} {w w' : Fin 8192 → EReal} {i i' : Fin 8192}
    (hx : x = x') (hq : q = q') (hw : w = w') (hi : i = i') : prob x q w i = prob x' q' w' i' := by
  subst hx hq hw hi; rfl

theorem mix_congr {x x' : Bank} {q q' : Fin 512 → EReal} {w w' : Fin 8192 → EReal} {j j' : Fin 512}
    (hx : x = x') (hq : q = q') (hw : w = w') (hj : j = j') : mix x q w j = mix x' q' w' j' := by
  subst hx hq hw hj; rfl

/-! ## What each point writes back -/

/-- Point `t` writes back its block of the attention array of the three arguments. -/
theorem flushed3_eq (c : Dev nD) (t : Fin cfg0.N) :
    (dats m 0 c).flushed 3 t = ((cfg0.win 3).blk t).view.read (Elt Ideal)
      (attn (m ((c : Thread nD τ).loc main_arg0)) (m ((c : Thread nD τ).loc main_arg1)) (m ((c : Thread nD τ).loc main_arg2))) := by
  rw [Value.flushed3]
  obtain ⟨-, -, -, -, -, -, -, -, -, -, -, f11, f12, f13⟩ := idx_facts t
  funext y
  have hy0 : (y 0).val < 1 := (y 0).isLt
  have hy1 : (y 1).val < 128 := (y 1).isLt
  have hy2 : (y 2).val < 8192 := (y 2).isLt
  obtain ⟨u, r, i, rfl⟩ : ∃ (u : Fin 1) (r : Fin 128) (i : Fin 8192), y = ix3 u r i :=
    ⟨⟨(y 0).val, hy0⟩, ⟨(y 1).val, hy1⟩, ⟨(y 2).val, hy2⟩, funext fun a => Fin.ext (by
      match a with | ⟨0, _⟩ => rfl | ⟨1, _⟩ => rfl | ⟨2, _⟩ => rfl)⟩
  refine (left3_at (iblk m c 0 t) (iblk m c 1 t) (iblk m c 2 t) u r i).trans ?_
  have hu : u.val = 0 := by omega
  exact prob_congr (bank_block m c t)
    (query_row m c t r _ _ (by show win0_3.index t (0 : Fin 3) * 1 + 1 * u.val = _; omega) (by show win0_3.index t (1 : Fin 3) * 128 + 1 * r.val = _; omega))
    (mask_row m c t r _ _ (by show win0_3.index t (0 : Fin 3) * 1 + 1 * u.val = _; omega) (by show win0_3.index t (1 : Fin 3) * 128 + 1 * r.val = _; omega))
    (Fin.ext (by show i.val = win0_3.index t (2 : Fin 3) * 8192 + 1 * i.val; omega))

/-- Point `t` writes back its block of the output array of the three arguments. -/
theorem flushed4_eq (c : Dev nD) (t : Fin cfg0.N) :
    (dats m 0 c).flushed 4 t = ((cfg0.win 4).blk t).view.read (Elt Ideal)
      (out (m ((c : Thread nD τ).loc main_arg0)) (m ((c : Thread nD τ).loc main_arg1)) (m ((c : Thread nD τ).loc main_arg2))) := by
  rw [Value.flushed4]
  obtain ⟨-, -, -, -, -, -, -, -, f8, f9, f10, f11, f12, f13⟩ := idx_facts t
  funext y
  have hy0 : (y 0).val < 1 := (y 0).isLt
  have hy1 : (y 1).val < 128 := (y 1).isLt
  have hy2 : (y 2).val < 512 := (y 2).isLt
  obtain ⟨u, r, j, rfl⟩ : ∃ (u : Fin 1) (r : Fin 128) (j : Fin 512), y = ix3 u r j :=
    ⟨⟨(y 0).val, hy0⟩, ⟨(y 1).val, hy1⟩, ⟨(y 2).val, hy2⟩, funext fun a => Fin.ext (by
      match a with | ⟨0, _⟩ => rfl | ⟨1, _⟩ => rfl | ⟨2, _⟩ => rfl)⟩
  refine (left4_at (iblk m c 0 t) (iblk m c 1 t) (iblk m c 2 t) u r j).trans ?_
  have hu : u.val = 0 := by omega
  exact mix_congr (bank_block m c t)
    (query_row m c t r _ _ (by show win0_4.index t (0 : Fin 3) * 1 + 1 * u.val = _; omega) (by show win0_4.index t (1 : Fin 3) * 128 + 1 * r.val = _; omega))
    (mask_row m c t r _ _ (by show win0_4.index t (0 : Fin 3) * 1 + 1 * u.val = _; omega) (by show win0_4.index t (1 : Fin 3) * 128 + 1 * r.val = _; omega))
    (Fin.ext (by show j.val = win0_4.index t (2 : Fin 3) * 512 + 1 * j.val; omega))

/-! ## The blocks cover both results -/

theorem mem_blk3 (t : Fin cfg0.N) (i : S4x2048x8192.Idx) :
    i ∈ ((cfg0.win 3).blk t).view.set ↔ ∀ a : Fin 3, win0_3.index t a * S1x128x8192.size a ≤ (i a).val
      ∧ (i a).val < win0_3.index t a * S1x128x8192.size a + S1x128x8192.size a := by
  show i ∈ ((View.whole main_v1_0).slice (win0_3.rect t)).set ↔ _
  rw [View.set_slice_whole, Rect.mem_set_unit]
  exact Iff.rfl

theorem mem_blk4 (t : Fin cfg0.N) (i : S4x2048x512.Idx) :
    i ∈ ((cfg0.win 4).blk t).view.set ↔ ∀ a : Fin 3, win0_4.index t a * S1x128x512.size a ≤ (i a).val
      ∧ (i a).val < win0_4.index t a * S1x128x512.size a + S1x128x512.size a := by
  show i ∈ ((View.whole main_v1_1).slice (win0_4.rect t)).set ↔ _
  rw [View.set_slice_whole, Rect.mem_set_unit]
  exact Iff.rfl

/-- Row `n` of batch `b` of the first result is in the block of the point of batch `b` and row block `n / 128`. -/
theorem cover3 (i : S4x2048x8192.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 8192 := (i 2).isLt
  obtain ⟨t, ht, -⟩ := idx_onto ⟨(i 0).val, hi0⟩ ⟨(i 1).val / 128, by omega⟩
  have q0 : win0_3.index t (0 : Fin 3) = (i 0).val := congrFun ht 0
  have q1 : win0_3.index t (1 : Fin 3) = (i 1).val / 128 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 8192 ≤ (i 2).val ∧ (i 2).val < win0_3.index t (2 : Fin 3) * 8192 + 8192; omega

/-- The same for the second result. -/
theorem cover4 (i : S4x2048x512.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 512 := (i 2).isLt
  obtain ⟨t, -, ht⟩ := idx_onto ⟨(i 0).val, hi0⟩ ⟨(i 1).val / 128, by omega⟩
  have q0 : win0_4.index t (0 : Fin 3) = (i 0).val := congrFun ht 0
  have q1 : win0_4.index t (1 : Fin 3) = (i 1).val / 128 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 512 ≤ (i 2).val ∧ (i 2).val < win0_4.index t (2 : Fin 3) * 512 + 512; omega

/-! ## The two results after the run -/

theorem final3 (c : Dev nD) : (dats m 0 c).arrAt 3 cfg0.N
    = attn (m ((c : Thread nD τ).loc main_arg0)) (m ((c : Thread nD τ).loc main_arg1)) (m ((c : Thread nD τ).loc main_arg2)) :=
  (dats m 0 c).arrAt_eq_of_cover 3 _ (fun t _ => flushed3_eq m c t) cover3

theorem final4 (c : Dev nD) : (dats m 0 c).arrAt 4 cfg0.N
    = out (m ((c : Thread nD τ).loc main_arg0)) (m ((c : Thread nD τ).loc main_arg1)) (m ((c : Thread nD τ).loc main_arg2)) :=
  (dats m 0 c).arrAt_eq_of_cover 4 _ (fun t _ => flushed4_eq m c t) cover4

/-- Every weakly fair execution of the kernel's program ends with the first result at the attention array and the second at
    the output array of the three arguments, and the arguments unchanged. -/
theorem run : θ_run defs (onTc (τ := τ) (main (F := Ideal))) ⟨m, fun _ => 0, ρ⟩ fun r => ∀ c : Dev nD,
      r.2.mem ((c : Thread nD τ).loc main_v1_0) = attn (m ((c : Thread nD τ).loc main_arg0)) (m ((c : Thread nD τ).loc main_arg1)) (m ((c : Thread nD τ).loc main_arg2))
      ∧ r.2.mem ((c : Thread nD τ).loc main_v1_1) = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Whole

end
-- ==== Proof.lean ====
/-
  A kernel for masked softmax attention over a shared bank, against its array-language reference.

  With a bank `x` (8192 rows of 512 numbers, serving as keys and as values), queries `q` (4 batches of 2048 rows) and a
  mask `w` (one number per query row and bank row), both programs return

    attn[b, t, i] = exp (s[b, t, i] − max_i' s[b, t, i']) / Σ_i' exp (s[b, t, i'] − max_i'' s[b, t, i'']),
    out[b, t, j]  = Σ_i attn[b, t, i] · x[i, j],        where  s[b, t, i] = Σ_k q[b, t, k] · x[i, k] + w[b, t, i] · scale.

  The kernel works on tiles of 128 query rows: per tile, two contractions into zero accumulators, a lane maximum and a
  lane sum, with changes of float format that are the identity on the extended reals. The reference does the same on the
  whole arrays with host contractions and reductions, and joins the row maximum once more with its start value.

  On the extended reals, with exact operations, the two are the same function of the arguments index by index
  (`Attention.lean` states it; `ReferenceAttention.lean` reads the reference as it; `KernelTile.lean` reads one tile of
  the kernel as it; `TilesToArrays.lean` puts the 64 tiles together). The only laws used are that a sum into a zero
  accumulator is the sum, that adding the start value zero changes nothing, and that a `max` fold is above its start value
  — none needs the inputs to be finite, so the precondition is not opened. Both programs run to the end with their
  arguments unchanged by the generated frame runs, and the idealization rewrote no operation.
-/
import proofs.«175150_j58093727645899_2_alg».proof.Defs
import proofs.«175150_j58093727645899_2_alg».proof.Proof.Gen.Kernel
import proofs.«175150_j58093727645899_2_alg».proof.Proof.Gen.Kernel.Frame
import proofs.«175150_j58093727645899_2_alg».proof.Proof.Gen.KernelIdeal
import proofs.«175150_j58093727645899_2_alg».proof.Proof.Gen.KernelIdeal.Frame
import proofs.«175150_j58093727645899_2_alg».proof.Proof.Gen.ReferenceIdeal
import proofs.«175150_j58093727645899_2_alg».proof.Proof.Gen.KernelIdeal.Value
import proofs.«175150_j58093727645899_2_alg».proof.Proof.Gen.ReferenceIdeal.Run
import proofs.«175150_j58093727645899_2_alg».proof.Proof.Gen.ReferenceIdeal.Read
import proofs.«175150_j58093727645899_2_alg».proof.Proof.Gen.Pre_finite_inputs
import proofs.«175150_j58093727645899_2_alg».proof.Proof.Attention
import proofs.«175150_j58093727645899_2_alg».proof.Proof.ReferenceAttention
import proofs.«175150_j58093727645899_2_alg».proof.Proof.TilesToArrays
import Idealize.ShloMosaic.Adequacy
import Idealize.ShloMosaic.Init

noncomputable section

namespace Cert.Proof

open Idealize.ShloMosaic Idealize.ShloMosaic.TcCoe Idealize.SL.Sem

/-- The kernel as printed runs to the end with its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Run from memories agreeing on the three arguments, the kernel and the reference end with the same two arrays: the
    attention array and the output array of those arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨?_, ?_, (h c).2.2⟩) (Cert.ReferenceIdeal.Value.run (F := Ideal) m' ρ')
  · refine (h c).1.trans ((Cert.ReferenceIdeal.Read.val_main_v14_eq _ _ _).trans ((Cert.ReferenceIdeal.RefValue.attn_eq _ _ _).trans ?_))
    rw [(hagree c).1, (hagree c).2.1, (hagree c).2.2]
  · refine (h c).2.1.trans ((Cert.ReferenceIdeal.Read.val_main_v15_eq _ _ _).trans ((Cert.ReferenceIdeal.RefValue.out_eq _ _ _).trans ?_))
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
